-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S8192x2048 .f32) (main_arg1 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S8192x2048 : Shape := ⟨2, ![8192, 2048]⟩
abbrev S2048x2048 : Shape := ⟨2, ![2048, 2048]⟩
abbrev S256x2048 : Shape := ⟨2, ![256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .f32⟩
  | .local _ .vmem, ⟨3, _⟩ => ⟨S256x2048, .f32⟩
  | .local _ .vmem, ⟨4, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x2048_S2048x2048_0_0 : ∀ a, (![0, 0] : Fin 2 → Nat) a + S2048x2048.size a ≤ S2048x2048.size a
  h_S2048x2048 : 0 < S2048x2048.numel
  natLt_1_32 : 1 < 32
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S8192x2048.size a
  hwx0_2 : ∀ i : grid0.Coords, EltTy.bits .f32 = 32 ∨ (Rect.block (s := S8192x2048) S256x2048.size (cc0_transform_2 i) (hinb0_2 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .i1⟩
  | .hbm, ⟨5, _⟩ => ⟨S2048x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Spec.lean ====
/-
  The mathematics of the certificate, stated over no program.

  A weight entry is BINARIZED: it counts as 1 when it is positive and as 0 otherwise (`step`). The result is the
  product of the activations with the binarized weights,

      product x w (r, c) = ∑ k, x (r, k) · step (w (k, c)),          r < 8192, k < 2048, c < 2048,

  on the extended reals. Both programs compute the comparison `0 < w (k, c)` as a single bit; they differ in how
  the bit becomes a number: one reads the bit directly as an unsigned integer, the other first widens it to 32 bits
  with zeros and then reads those 32 bits as a SIGNED integer. A bit widened with zeros is 0 or 1 as a 32-bit word,
  far from the sign bit, so the two readings agree (`widen_signed`).
-/
import Idealize.ShloMosaic.PureOps.Ideal
import Idealize.ShloMosaic.Lib.ValueIdx

noncomputable section

open scoped BigOperators

namespace Cert.BinaryWeights

open Idealize.ShloMosaic Idealize.ShloMosaic.ValueIdx

/-- The binarized weight: 1 where the entry is positive, 0 elsewhere (in particular at `-∞` and at 0; at `+∞` it is 1).
    Written as the comparison bit read as a natural number, which is how both programs produce it. -/
def step (y : EReal) : EReal :=
  (((Ideal.cmp .ogt y (Ideal.ofBits .f32 0x00000000#32)).toNat : ℝ) : EReal)

/-- The activations times the binarized weights: entry (r, c) sums, over the 2048 inner positions k, the activation
    x (r, k) times the binarized weight at (k, c). -/
def product (x : (⟨2, ![8192, 2048]⟩ : Shape).Idx → EReal) (w : (⟨2, ![2048, 2048]⟩ : Shape).Idx → EReal) :
    (⟨2, ![8192, 2048]⟩ : Shape).Idx → EReal :=
  fun i => ∑ k : Fin 2048, x (ix2 (i 0) k) * step (w (ix2 k (i 1)))

/-- One bit widened to 32 bits with zeros is the word 0 or the word 1; read as a signed integer it is the bit. -/
theorem widen_signed (b : BitVec 1) : (b.setWidth 32).toInt = (b.toNat : Int) := by
  have h : ∀ b : BitVec 1, (b.setWidth 32).toInt = (b.toNat : Int) := by decide
  exact h b

/-- So the bit, widened and then converted as a signed integer, is the same extended real as the bit converted
    directly as an unsigned integer. -/
theorem widen_signed_real (b : BitVec 1) :
    ((((b.setWidth 32).toInt : Int) : ℝ) : EReal) = (((b.toNat : ℕ) : ℝ) : EReal) := by
  rw [widen_signed, Int.cast_natCast]

end Cert.BinaryWeights

end
-- ==== Proof.Payload.lean ====
/-
  What the kernel body computes from the two blocks it loads.

  The body loads the whole weight array (2048 × 2048) and one block of 256 rows of activations (256 × 2048). It
  compares every weight with zero, widens the comparison bit to 32 bits with zeros, converts that word to a number
  (read signed), and multiplies the activation block with the result on the matrix unit, onto a zero accumulator; the
  two changes of float format in between are the identity on the extended reals. So entry (p, q) of the stored block
  is the sum over k of the activation at (p, k) times `step` of the weight at (k, q): the matrix product's operand
  indices at (p, q) and k are (p, k) and (k, q), and the widened bit read signed is the bit read unsigned.
-/
import proofs.«176681_j8693013807478_2_alg».proof.Proof.Gen.KernelIdeal.Skeleton
import proofs.«176681_j8693013807478_2_alg».proof.Proof.Spec
import Idealize.ShloMosaic.PureOps.Ideal.Laws

noncomputable section

open scoped BigOperators

namespace Cert.BinaryWeights

open Idealize.ShloMosaic Idealize.ShloMosaic.ValueIdx Cert.KernelIdeal Cert.KernelIdeal.Gen

/-- The matrix product's left operand index at output (p, q) and inner position k: row p. -/
theorem lhs_row (j : S256x2048.Idx) (s : dot_S256x2048_S2048x2048_S256x2048_1_0_0_1_n_n.contr.Idx) :
    (dot_S256x2048_S2048x2048_S256x2048_1_0_0_1_n_n.lhsIdx j s 0).val = (j 0).val := by
  unfold DotDims.lhsIdx
  rw [dif_neg (show ¬(0 : Fin S256x2048.rank) ∈ dot_S256x2048_S2048x2048_S256x2048_1_0_0_1_n_n.lhsBatch by decide),
    dif_pos (show (0 : Fin S256x2048.rank) ∈ dot_S256x2048_S2048x2048_S256x2048_1_0_0_1_n_n.lhsNonContracting by decide)]
  rfl

/-- … and column k. -/
theorem lhs_col (j : S256x2048.Idx) (s : dot_S256x2048_S2048x2048_S256x2048_1_0_0_1_n_n.contr.Idx) :
    (dot_S256x2048_S2048x2048_S256x2048_1_0_0_1_n_n.lhsIdx j s 1).val = (s ⟨0, by decide⟩).val :=
  dot_S256x2048_S2048x2048_S256x2048_1_0_0_1_n_n.lhsIdx_val_of_single rfl j s

/-- The right operand index: row k, -/
theorem rhs_row (j : S256x2048.Idx) (s : dot_S256x2048_S2048x2048_S256x2048_1_0_0_1_n_n.contr.Idx) :
    (dot_S256x2048_S2048x2048_S256x2048_1_0_0_1_n_n.rhsIdx j s 0).val = (s ⟨0, by decide⟩).val :=
  dot_S256x2048_S2048x2048_S256x2048_1_0_0_1_n_n.rhsIdx_val_of_single rfl j s

/-- … and column q. -/
theorem rhs_col (j : S256x2048.Idx) (s : dot_S256x2048_S2048x2048_S256x2048_1_0_0_1_n_n.contr.Idx) :
    (dot_S256x2048_S2048x2048_S256x2048_1_0_0_1_n_n.rhsIdx j s 1).val = (j 1).val := by
  unfold DotDims.rhsIdx
  rw [dif_neg (show ¬(1 : Fin S2048x2048.rank) ∈ dot_S256x2048_S2048x2048_S256x2048_1_0_0_1_n_n.rhsBatch by decide),
    dif_pos (show (1 : Fin S2048x2048.rank) ∈ dot_S256x2048_S2048x2048_S256x2048_1_0_0_1_n_n.rhsNonContracting by decide)]
  rfl

/-- The stored block at (p, q): the activation block's row p against the binarized column q of the weights. -/
theorem payload_apply (wts : Vec Ideal S2048x2048 .f32) (act : Vec Ideal S256x2048 .f32) (j : S256x2048.Idx) :
    k0_pay1 (F := Ideal) wts act j = ∑ k : Fin 2048, act (ix2 (j 0) k) * step (wts (ix2 k (j 1))) := by
  unfold k0_pay1
  refine (Ideal.matmul_constant_zero_apply dot_S256x2048_S2048x2048_S256x2048_1_0_0_1_n_n none _ _ j).trans ?_
  rw [← Equiv.sum_comp (contrEquiv1 dot_S256x2048_S2048x2048_S256x2048_1_0_0_1_n_n 2048 rfl rfl).symm]
  refine Finset.sum_congr rfl fun k _ => ?_
  have hk := contrEquiv1_symm_val dot_S256x2048_S2048x2048_S256x2048_1_0_0_1_n_n 2048 rfl rfl k
  have el : dot_S256x2048_S2048x2048_S256x2048_1_0_0_1_n_n.lhsIdx j
      ((contrEquiv1 dot_S256x2048_S2048x2048_S256x2048_1_0_0_1_n_n 2048 rfl rfl).symm k) = ix2 (j 0) k :=
    funext fun a => Fin.ext (by
      match a with
      | ⟨0, _⟩ => exact lhs_row _ _
      | ⟨1, _⟩ => exact (lhs_col _ _).trans hk)
  have er : dot_S256x2048_S2048x2048_S256x2048_1_0_0_1_n_n.rhsIdx j
      ((contrEquiv1 dot_S256x2048_S2048x2048_S256x2048_1_0_0_1_n_n 2048 rfl rfl).symm k) = ix2 k (j 1) :=
    funext fun a => Fin.ext (by
      match a with
      | ⟨0, _⟩ => exact (rhs_row _ _).trans hk
      | ⟨1, _⟩ => exact rhs_col _ _)
  rw [el, er]
  -- the format changes are the identity; the weight's bit, widened and read signed, is the bit read unsigned
  exact congrArg (act (ix2 (j 0) k) * ·) (widen_signed_real _)

/-- A stored block is a block of rows of `product`: if row p of the activation block is row r of the activation
    array `X`, and column q of the weight block is column c of the weight array `W`, then the stored block's entry
    (p, q) is `product X W` at (r, c). -/
theorem payload_eq_product (X : S8192x2048.Idx → EReal) (W : S2048x2048.Idx → EReal)
    (wts : Vec Ideal S2048x2048 .f32) (act : Vec Ideal S256x2048 .f32) (i : S8192x2048.Idx) (j : S256x2048.Idx)
    (hact : ∀ k : Fin 2048, act (ix2 (j 0) k) = X (ix2 (i 0) k))
    (hwts : ∀ k : Fin 2048, wts (ix2 k (j 1)) = W (ix2 k (i 1))) :
    k0_pay1 (F := Ideal) wts act j = product X W i :=
  (payload_apply wts act j).trans (Finset.sum_congr rfl fun k _ => by rw [hact k, hwts k])

end Cert.BinaryWeights

end
-- ==== Proof.Blocks.lean ====
/-
  From the blocks to the whole array.

  The grid has 32 points. At point t the kernel reads rows 256·t … 256·t + 255 of the activations (all 2048 columns)
  and the whole weight array, and writes rows 256·t … 256·t + 255 of the result (all 2048 columns). Entry (p, q) of
  the written block is the sum over k of the activation block at (p, k) times the binarized weight at (k, q)
  (Payload.lean); the activation block's row p is row 256·t + p of the array and the weight block is the array itself,
  so the written block is exactly the rows 256·t … of `product x w`. Row r of the result lies in the block of
  point r / 256, so the 32 blocks cover the array, and the array ends holding `product x w`.
-/
import proofs.«176681_j8693013807478_2_alg».proof.Proof.Gen.KernelIdeal.Value
import proofs.«176681_j8693013807478_2_alg».proof.Proof.Payload

noncomputable section

open scoped BigOperators

namespace Cert.BinaryWeights

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's loads and its store start at the corner of their buffers. -/
theorem corner : (![0, 0] : Fin 2 → Nat) = fun _ => 0 := funext fun a => by fin_cases a <;> rfl

/-- Where the three windows sit at each of the 32 points: the activation block and the result block on the same block
    row, at most the 31st; everything else at block 0. -/
theorem block_positions : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 31
    ∧ win0_2.index t (1 : Fin 2) = 0 :=
  (by decide +kernel : ∀ t : Fin grid0.N, _)

/-- Every one of the 32 block rows of the result is some point's. -/
theorem every_block_row : ∀ b : Fin 32, ∃ t : Fin cfg0.N, win0_2.index t = ![b.val, 0] :=
  (by decide +kernel : ∀ b : Fin 32, ∃ t : Fin grid0.N, win0_2.index t = ![b.val, 0])

/-- What point `t` writes back is its 256 rows of `product` of the two argument arrays. -/
theorem written_block (c : Dev nD) (t : Fin cfg0.N) :
    (dats m 0 c).flushed 2 t
      = ((cfg0.win 2).blk t).view.read (Elt Ideal) (product (V m c main_arg0) (V m c main_arg1)) := by
  rw [Cert.KernelIdeal.Value.flushed2]
  unfold out0_2
  rw [View.canon_unit_zero corner]
  simp only [View.ld_unit_zero (S := S256x2048) corner, View.ld_unit_zero (S := S2048x2048) corner]
  obtain ⟨e0, e1, e2, e3, e4, e5⟩ := block_positions t
  funext j
  refine payload_eq_product (V m c main_arg0) (V m c main_arg1) (iblk m c 1 t) (iblk m c 0 t)
    (((cfg0.win 2).blk t).view.emb j) j (fun k => ?_) (fun k => ?_)
  · -- row p of the activation block is the array's row 256·t + p, the row of the result being written
    show V m c main_arg0 (((cfg0.win 0).blk t).view.emb _) = V m c main_arg0 _
    refine congrArg (V m c main_arg0) ?_
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 2048 + 1 * k.val = k.val; omega
  · -- the weight block is the whole weight array, and the result block spans all columns
    show V m c main_arg1 (((cfg0.win 1).blk t).view.emb _) = V m c main_arg1 _
    refine congrArg (V m c main_arg1) ?_
    funext a; apply Fin.ext
    match a with
    | ⟨0, _⟩ => show win0_1.index t (0 : Fin 2) * 2048 + 1 * k.val = k.val; omega
    | ⟨1, _⟩ => show win0_1.index t (1 : Fin 2) * 2048 + 1 * (j 1).val = win0_2.index t (1 : Fin 2) * 2048 + 1 * (j 1).val; omega

/-- An entry of the result is in point `t`'s block iff each coordinate is in the block's range. -/
theorem in_block (t : Fin cfg0.N) (i : S8192x2048.Idx) :
    i ∈ ((cfg0.win 2).blk t).view.set ↔ ∀ a : Fin 2, win0_2.index t a * S256x2048.size a ≤ (i a).val
      ∧ (i a).val < win0_2.index t a * S256x2048.size a + S256x2048.size a := by
  show i ∈ ((View.whole main_v0).slice (win0_2.rect t)).set ↔ _
  rw [View.set_slice_whole, Rect.mem_set_unit]
  exact Iff.rfl

/-- Every entry (r, c) of the result is in the block of the point that writes block row r / 256. -/
theorem covered (i : S8192x2048.Idx) :
    ∃ t : Fin cfg0.N, (cfg0.win 2).flush t = true ∧ i ∈ ((cfg0.win 2).blk t).view.set := by
  have hi0 : (i 0).val < 8192 := (i 0).isLt
  have hi1 : (i 1).val < 2048 := (i 1).isLt
  obtain ⟨t, ht⟩ := every_block_row ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [in_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 2048 ≤ (i 1).val ∧ (i 1).val < win0_2.index t (1 : Fin 2) * 2048 + 2048; omega

/-- After the run the result array is `product` of the two argument arrays. -/
theorem result_array (c : Dev nD) :
    (dats m 0 c).arrAt 2 cfg0.N
      = product (m ((c : Thread nD τ).loc main_arg0)) (m ((c : Thread nD τ).loc main_arg1)) :=
  (dats m 0 c).arrAt_eq_of_cover 2 (product (V m c main_arg0) (V m c main_arg1))
    (fun t _ => written_block m c t) covered

/-- The kernel's run: every weakly fair execution terminates with the result array at `product` of the arguments
    and the arguments unchanged. -/
theorem kernel_run : θ_run defs (onTc (τ := τ) (main (F := Ideal))) ⟨m, fun _ => 0, ρ⟩ fun r => ∀ c : Dev nD,
      r.2.mem ((c : Thread nD τ).loc main_v0)
        = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_array m c), (h c).2⟩)
    (Cert.KernelIdeal.Value.run_blocks m ρ)

end Cert.BinaryWeights

end
-- ==== Proof.Reference.lean ====
/-
  The reference computes `product`.

  The reference compares every weight with zero, converts the comparison bit to a number (read unsigned), and
  contracts the activations with the result over the inner axis: entry (r, c) is the sum over k of x (r, k) times the
  converted bit at (k, c). That converted bit is `step (w (k, c))` by definition, and the contraction's operand
  indices at (r, c) and k are (r, k) and (k, c).
-/
import proofs.«176681_j8693013807478_2_alg».proof.Proof.Gen.ReferenceIdeal.Read
import proofs.«176681_j8693013807478_2_alg».proof.Proof.Spec

noncomputable section

open scoped BigOperators

namespace Cert.BinaryWeights

open Idealize.ShloMosaic Idealize.ShloMosaic.ValueIdx Cert.ReferenceIdeal Cert.ReferenceIdeal.Read

/-- The reference's last stage, as a function of the two argument arrays, is `product`. -/
theorem reference_eq (x : (⟨S8192x2048, .f32⟩ : BufTy).Contents (Elt Ideal)) (w : (⟨S2048x2048, .f32⟩ : BufTy).Contents (Elt Ideal)) :
    val_main_v3 (F := Ideal) x w = product x w := by
  funext i
  obtain ⟨r, c, rfl⟩ : ∃ (r : Fin 8192) (c : Fin 2048), i = ix2 r c := ⟨i 0, i 1, eq_ix2 i⟩
  rw [val_main_v3_apply]
  refine Finset.sum_congr rfl fun k _ => ?_
  -- the contraction's operand indices at output (r, c) and inner position k are (r, k) and (k, c)
  have el : lidx_main_v3 (ix2 r c) k = ix2 r k :=
    funext fun a => Fin.ext (by match a with | ⟨0, _⟩ => rfl | ⟨1, _⟩ => rfl)
  have er : ridx_main_v3 (ix2 r c) k = ix2 k c :=
    funext fun a => Fin.ext (by match a with | ⟨0, _⟩ => rfl | ⟨1, _⟩ => rfl)
  rw [el, er, val_main_v2_apply, val_main_v1_apply, val_main_v0_apply, val_main_cst_apply]
  rfl

end Cert.BinaryWeights

end
-- ==== Proof.lean ====
/-
  The proof of `Cert.Claim`: a 0/1-weight matrix product, tiled over blocks of rows, against the plain product.

  Both programs binarize the weights — an entry counts as 1 when it is positive and as 0 otherwise — and multiply the
  8192 × 2048 activations with the binarized 2048 × 2048 weights. The kernel does it in 32 grid points, each
  multiplying 256 rows of activations with the whole binarized weight array on the matrix unit (after format changes
  that are the identity on the extended reals, and producing the 0/1 entries by widening the comparison bit to 32 bits
  and reading the word as a signed integer); the reference does it as one contraction over the whole arrays (reading
  the comparison bit as an unsigned integer). On the extended reals both results are, entry by entry,

      ∑ k, x (r, k) · step (w (k, c)),

  the same sum in the same order (Spec.lean: `product`): no law of arithmetic is needed beyond reading both sides at an
  index, and the precondition (finite inputs) is not used. The kernel's side is Payload.lean (one block) and
  Blocks.lean (the 32 blocks cover the result); the reference's side is Reference.lean. The three frame claims are the
  generated frame runs, and the idealization rewrote nothing, so `preserves` is trivial.
-/
import proofs.«176681_j8693013807478_2_alg».proof.Defs
import proofs.«176681_j8693013807478_2_alg».proof.Proof.Gen.Kernel
import proofs.«176681_j8693013807478_2_alg».proof.Proof.Gen.Kernel.Skeleton
import proofs.«176681_j8693013807478_2_alg».proof.Proof.Gen.Kernel.Launch
import proofs.«176681_j8693013807478_2_alg».proof.Proof.Gen.Kernel.Points
import proofs.«176681_j8693013807478_2_alg».proof.Proof.Gen.Kernel.Frame
import proofs.«176681_j8693013807478_2_alg».proof.Proof.Gen.KernelIdeal
import proofs.«176681_j8693013807478_2_alg».proof.Proof.Gen.KernelIdeal.Skeleton
import proofs.«176681_j8693013807478_2_alg».proof.Proof.Gen.KernelIdeal.Launch
import proofs.«176681_j8693013807478_2_alg».proof.Proof.Gen.KernelIdeal.Points
import proofs.«176681_j8693013807478_2_alg».proof.Proof.Gen.KernelIdeal.Frame
import proofs.«176681_j8693013807478_2_alg».proof.Proof.Gen.ReferenceIdeal
import proofs.«176681_j8693013807478_2_alg».proof.Proof.Gen.Pre_finite_inputs
import proofs.«176681_j8693013807478_2_alg».proof.Proof.Gen.KernelIdeal.Value
import proofs.«176681_j8693013807478_2_alg».proof.Proof.Gen.ReferenceIdeal.Run
import proofs.«176681_j8693013807478_2_alg».proof.Proof.Gen.ReferenceIdeal.Read
import proofs.«176681_j8693013807478_2_alg».proof.Proof.Blocks
import proofs.«176681_j8693013807478_2_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel :=
  fun m ρ _ => Cert.Kernel.Gen.frame m ρ

/-- So does the kernel read on the extended reals. -/
theorem frame_kernel_ideal : Cert.frame_KernelIdeal :=
  fun m ρ _ => Cert.KernelIdeal.Gen.frame m ρ

/-- The reference's run, with its result dropped, is its frame. -/
theorem frame_reference : Cert.frame_ReferenceIdeal :=
  fun m ρ _ => (θ_run Cert.ReferenceIdeal.defs _ _).mono (fun _ h c => (h c).2)
    (Cert.ReferenceIdeal.Value.run (F := Ideal) m ρ)

/-- Both programs, from memories that agree on the two arguments, end with the result array at `product` of the
    arguments: the kernel by its 32 blocks, the reference by reading its contraction at an index. -/
theorem algebraic : Cert.algebraic_KernelIdeal_ReferenceIdeal := by
  intro m ρ m' ρ' _ hagree
  refine ⟨fun c => Cert.BinaryWeights.product (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.BinaryWeights.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.BinaryWeights.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
